-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048 : Shape := ⟨3, ![2, 16, 2048]⟩
abbrev S4096x2048 : Shape := ⟨2, ![4096, 2048]⟩
abbrev S_ : Shape := ⟨0, ![]⟩

class Facts : Prop where
  bcast_S_S2x16x2048 : S_.BroadcastsInDim S2x16x2048 (![] : Fin 0 → Fin S2x16x2048.rank)
  reducesTo_S2x16x2048_S_d0_1_2 : S2x16x2048.ReducesTo [0, 1, 2] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S2x16x2048 .f32) (main_arg1 : FVec F S4096x2048 .f32) : IVec S_ 1 :=
  let main_v0 : FVec F S2x16x2048 .f32 := Host.absf main_arg0
  let main_cst : FVec F S_ .f32 := constant S_ .f32 0x7F800000#32
  let main_v1 : FVec F S2x16x2048 .f32 := broadcastInDim S2x16x2048 ![] bcast_S_S2x16x2048 main_cst
  let main_v2 : IVec S2x16x2048 1 := cmpf .olt main_v0 main_v1
  let main_c : IVec S_ 1 := constantI S_ 1 1#1
  let main_v3 : IVec S_ 1 := (fun x v => Host.reduce IntOp.andi x v reducesTo_S2x16x2048_S_d0_1_2 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S2x16x2048 : Shape := ⟨3, ![2, 16, 2048]⟩
abbrev S4096x2048 : Shape := ⟨2, ![4096, 2048]⟩
abbrev S32x2048 : Shape := ⟨2, ![32, 2048]⟩
abbrev S32x4096 : Shape := ⟨2, ![32, 4096]⟩
abbrev S512x2048 : Shape := ⟨2, ![512, 2048]⟩
abbrev S32x512 : Shape := ⟨2, ![32, 512]⟩
abbrev S128x2048 : Shape := ⟨2, ![128, 2048]⟩
abbrev S1x2048 : Shape := ⟨2, ![1, 2048]⟩
abbrev S128 : Shape := ⟨1, ![128]⟩
abbrev S1x128 : Shape := ⟨2, ![1, 128]⟩
abbrev S8x128 : Shape := ⟨2, ![8, 128]⟩
abbrev S2x16x4096 : Shape := ⟨3, ![2, 16, 4096]⟩

abbrev nBuf : Space → Nat
  | .hbm => 5
  | .vmem => 5
  | .smem => 0
  | _ => 0

abbrev bufTy : (tb : Table) → Fin (tcTables nBuf tb) → BufTy
  | .hbm, ⟨0, _⟩ => ⟨S2x16x2048, .f32⟩
  | .hbm, ⟨1, _⟩ => ⟨S4096x2048, .f32⟩
  | .hbm, ⟨2, _⟩ => ⟨S32x2048, .f32⟩
  | .hbm, ⟨3, _⟩ => ⟨S32x4096, .f32⟩
  | .hbm, ⟨4, _⟩ => ⟨S2x16x4096, .f32⟩
  | .local _ .vmem, ⟨0, _⟩ => ⟨S32x2048, .f32⟩
  | .local _ .vmem, ⟨1, _⟩ => ⟨S512x2048, .f32⟩
  | .local _ .vmem, ⟨2, _⟩ => ⟨S512x2048, .f32⟩
  | .local _ .vmem, ⟨3, _⟩ => ⟨S32x512, .f32⟩
  | .local _ .vmem, ⟨4, _⟩ => ⟨S32x512, .f32⟩
  | _, _ => ⟨S2x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x16x2048_S32x2048 : S2x16x2048.ShapeCasts S32x2048
  inb_S512x2048_S128x2048_0_0 : ∀ a, (![0, 0] : Fin 2 → Nat) a + S128x2048.size a ≤ S512x2048.size a
  h_S128x2048 : 0 < S128x2048.numel
  inb_S32x2048_S1x2048_0_0 : ∀ a, (![0, 0] : Fin 2 → Nat) a + S1x2048.size a ≤ S32x2048.size a
  h_S1x2048 : 0 < S1x2048.numel
  shapeCasts_S1x2048_S1x2048 : S1x2048.ShapeCasts S1x2048
  broadcasts_S1x2048_S128x2048 : S1x2048.Broadcasts S128x2048
  reduces_S128x2048_S128 : S128x2048.Reduces [1] S128
  inb_S32x2048_S1x2048_1_0 : ∀ a, (![1, 0] : Fin 2 → Nat) a + S1x2048.size a ≤ S32x2048.size a
  inb_S32x2048_S1x2048_2_0 : ∀ a, (![2, 0] : Fin 2 → Nat) a + S1x2048.size a ≤ S32x2048.size a
  inb_S32x2048_S1x2048_3_0 : ∀ a, (![3, 0] : Fin 2 → Nat) a + S1x2048.size a ≤ S32x2048.size a
  inb_S32x2048_S1x2048_4_0 : ∀ a, (![4, 0] : Fin 2 → Nat) a + S1x2048.size a ≤ S32x2048.size a
  inb_S32x2048_S1x2048_5_0 : ∀ a, (![5, 0] : Fin 2 → Nat) a + S1x2048.size a ≤ S32x2048.size a
  inb_S32x2048_S1x2048_6_0 : ∀ a, (![6, 0] : Fin 2 → Nat) a + S1x2048.size a ≤ S32x2048.size a
  inb_S32x2048_S1x2048_7_0 : ∀ a, (![7, 0] : Fin 2 → Nat) a + S1x2048.size a ≤ S32x2048.size a
  shapeCasts_S128_S1x128 : S128.ShapeCasts S1x128
  concatenates_S1x128_S1x128_S1x128_S1x128_S1x128_S1x128_S1x128_S1x128_S8x128_d0 : Shape.Concatenates [S1x128, S1x128, S1x128, S1x128, S1x128, S1x128, S1x128, S1x128] S8x128 0
  inb_S32x512_S8x128_0_0 : ∀ a, (![0, 0] : Fin 2 → Nat) a + S8x128.size a ≤ S32x512.size a
  h_S8x128 : 0 < S8x128.numel
  inb_S512x2048_S128x2048_128_0 : ∀ a, (![128, 0] : Fin 2 → Nat) a + S128x2048.size a ≤ S512x2048.size a
  inb_S32x512_S8x128_0_128 : ∀ a, (![0, 128] : Fin 2 → Nat) a + S8x128.size a ≤ S32x512.size a
  inb_S512x2048_S128x2048_256_0 : ∀ a, (![256, 0] : Fin 2 → Nat) a + S128x2048.size a ≤ S512x2048.size a
  inb_S32x512_S8x128_0_256 : ∀ a, (![0, 256] : Fin 2 → Nat) a + S8x128.size a ≤ S32x512.size a
  inb_S512x2048_S128x2048_384_0 : ∀ a, (![384, 0] : Fin 2 → Nat) a + S128x2048.size a ≤ S512x2048.size a
  inb_S32x512_S8x128_0_384 : ∀ a, (![0, 384] : Fin 2 → Nat) a + S8x128.size a ≤ S32x512.size a
  inb_S32x2048_S1x2048_8_0 : ∀ a, (![8, 0] : Fin 2 → Nat) a + S1x2048.size a ≤ S32x2048.size a
  inb_S32x2048_S1x2048_9_0 : ∀ a, (![9, 0] : Fin 2 → Nat) a + S1x2048.size a ≤ S32x2048.size a
  inb_S32x2048_S1x2048_10_0 : ∀ a, (![10, 0] : Fin 2 → Nat) a + S1x2048.size a ≤ S32x2048.size a
  inb_S32x2048_S1x2048_11_0 : ∀ a, (![11, 0] : Fin 2 → Nat) a + S1x2048.size a ≤ S32x2048.size a
  inb_S32x2048_S1x2048_12_0 : ∀ a, (![12, 0] : Fin 2 → Nat) a + S1x2048.size a ≤ S32x2048.size a
  inb_S32x2048_S1x2048_13_0 : ∀ a, (![13, 0] : Fin 2 → Nat) a + S1x2048.size a ≤ S32x2048.size a
  inb_S32x2048_S1x2048_14_0 : ∀ a, (![14, 0] : Fin 2 → Nat) a + S1x2048.size a ≤ S32x2048.size a
  inb_S32x2048_S1x2048_15_0 : ∀ a, (![15, 0] : Fin 2 → Nat) a + S1x2048.size a ≤ S32x2048.size a
  inb_S32x512_S8x128_8_0 : ∀ a, (![8, 0] : Fin 2 → Nat) a + S8x128.size a ≤ S32x512.size a
  inb_S32x512_S8x128_8_128 : ∀ a, (![8, 128] : Fin 2 → Nat) a + S8x128.size a ≤ S32x512.size a
  inb_S32x512_S8x128_8_256 : ∀ a, (![8, 256] : Fin 2 → Nat) a + S8x128.size a ≤ S32x512.size a
  inb_S32x512_S8x128_8_384 : ∀ a, (![8, 384] : Fin 2 → Nat) a + S8x128.size a ≤ S32x512.size a
  inb_S32x2048_S1x2048_16_0 : ∀ a, (![16, 0] : Fin 2 → Nat) a + S1x2048.size a ≤ S32x2048.size a
  inb_S32x2048_S1x2048_17_0 : ∀ a, (![17, 0] : Fin 2 → Nat) a + S1x2048.size a ≤ S32x2048.size a
  inb_S32x2048_S1x2048_18_0 : ∀ a, (![18, 0] : Fin 2 → Nat) a + S1x2048.size a ≤ S32x2048.size a
  inb_S32x2048_S1x2048_19_0 : ∀ a, (![19, 0] : Fin 2 → Nat) a + S1x2048.size a ≤ S32x2048.size a
  inb_S32x2048_S1x2048_20_0 : ∀ a, (![20, 0] : Fin 2 → Nat) a + S1x2048.size a ≤ S32x2048.size a
  inb_S32x2048_S1x2048_21_0 : ∀ a, (![21, 0] : Fin 2 → Nat) a + S1x2048.size a ≤ S32x2048.size a
  inb_S32x2048_S1x2048_22_0 : ∀ a, (![22, 0] : Fin 2 → Nat) a + S1x2048.size a ≤ S32x2048.size a
  inb_S32x2048_S1x2048_23_0 : ∀ a, (![23, 0] : Fin 2 → Nat) a + S1x2048.size a ≤ S32x2048.size a
  inb_S32x512_S8x128_16_0 : ∀ a, (![16, 0] : Fin 2 → Nat) a + S8x128.size a ≤ S32x512.size a
  inb_S32x512_S8x128_16_128 : ∀ a, (![16, 128] : Fin 2 → Nat) a + S8x128.size a ≤ S32x512.size a
  inb_S32x512_S8x128_16_256 : ∀ a, (![16, 256] : Fin 2 → Nat) a + S8x128.size a ≤ S32x512.size a
  inb_S32x512_S8x128_16_384 : ∀ a, (![16, 384] : Fin 2 → Nat) a + S8x128.size a ≤ S32x512.size a
  inb_S32x2048_S1x2048_24_0 : ∀ a, (![24, 0] : Fin 2 → Nat) a + S1x2048.size a ≤ S32x2048.size a
  inb_S32x2048_S1x2048_25_0 : ∀ a, (![25, 0] : Fin 2 → Nat) a + S1x2048.size a ≤ S32x2048.size a
  inb_S32x2048_S1x2048_26_0 : ∀ a, (![26, 0] : Fin 2 → Nat) a + S1x2048.size a ≤ S32x2048.size a
  inb_S32x2048_S1x2048_27_0 : ∀ a, (![27, 0] : Fin 2 → Nat) a + S1x2048.size a ≤ S32x2048.size a
  inb_S32x2048_S1x2048_28_0 : ∀ a, (![28, 0] : Fin 2 → Nat) a + S1x2048.size a ≤ S32x2048.size a
  inb_S32x2048_S1x2048_29_0 : ∀ a, (![29, 0] : Fin 2 → Nat) a + S1x2048.size a ≤ S32x2048.size a
  inb_S32x2048_S1x2048_30_0 : ∀ a, (![30, 0] : Fin 2 → Nat) a + S1x2048.size a ≤ S32x2048.size a
  inb_S32x2048_S1x2048_31_0 : ∀ a, (![31, 0] : Fin 2 → Nat) a + S1x2048.size a ≤ S32x2048.size a
  inb_S32x512_S8x128_24_0 : ∀ a, (![24, 0] : Fin 2 → Nat) a + S8x128.size a ≤ S32x512.size a
  inb_S32x512_S8x128_24_128 : ∀ a, (![24, 128] : Fin 2 → Nat) a + S8x128.size a ≤ S32x512.size a
  inb_S32x512_S8x128_24_256 : ∀ a, (![24, 256] : Fin 2 → Nat) a + S8x128.size a ≤ S32x512.size a
  inb_S32x512_S8x128_24_384 : ∀ a, (![24, 384] : Fin 2 → Nat) a + S8x128.size a ≤ S32x512.size a
  shapeCasts_S32x4096_S2x16x4096 : S32x4096.ShapeCasts S2x16x4096
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x4096.size a
  hwx0_2 : ∀ i : grid0.Coords, EltTy.bits .f32 = 32 ∨ (Rect.block (s := S32x4096) S32x512.size (cc0_transform_2 i) (hinb0_2 i)).WholeWords (EltTy.packing .f32)

variable [Facts₀]

abbrev win0_0 : Pipeline.Window sig grid0 :=
  Pipeline.Window.ofSpec (Memref.whole main_v0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048 : Shape := ⟨3, ![2, 16, 2048]⟩
abbrev S4096x2048 : Shape := ⟨2, ![4096, 2048]⟩
abbrev S2x16x1x2048 : Shape := ⟨4, ![2, 16, 1, 2048]⟩
abbrev S1x1x4096x2048 : Shape := ⟨4, ![1, 1, 4096, 2048]⟩
abbrev S2x16x4096x2048 : Shape := ⟨4, ![2, 16, 4096, 2048]⟩
abbrev S_ : Shape := ⟨0, ![]⟩
abbrev S2x16x4096 : Shape := ⟨3, ![2, 16, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x16x2048, .f32⟩
  | .hbm, ⟨1, _⟩ => ⟨S4096x2048, .f32⟩
  | .hbm, ⟨2, _⟩ => ⟨S2x16x1x2048, .f32⟩
  | .hbm, ⟨3, _⟩ => ⟨S1x1x4096x2048, .f32⟩
  | .hbm, ⟨4, _⟩ => ⟨S2x16x4096x2048, .f32⟩
  | .hbm, ⟨5, _⟩ => ⟨S2x16x4096x2048, .f32⟩
  | .hbm, ⟨6, _⟩ => ⟨S2x16x4096x2048, .f32⟩
  | .hbm, ⟨7, _⟩ => ⟨S_, .f32⟩
  | .hbm, ⟨8, _⟩ => ⟨S2x16x4096, .f32⟩
  | _, _ => ⟨S2x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2x16x2048_S2x16x1x2048_0_1_3 : S2x16x2048.BroadcastsInDim S2x16x1x2048 (![0, 1, 3] : Fin 3 → Fin S2x16x1x2048.rank)
  bcast_S4096x2048_S1x1x4096x2048_2_3 : S4096x2048.BroadcastsInDim S1x1x4096x2048 (![2, 3] : Fin 2 → Fin S1x1x4096x2048.rank)
  bcast_S2x16x1x2048_S2x16x4096x2048_0_1_2_3 : S2x16x1x2048.BroadcastsInDim S2x16x4096x2048 (![0, 1, 2, 3] : Fin 4 → Fin S2x16x4096x2048.rank)
  bcast_S1x1x4096x2048_S2x16x4096x2048_0_1_2_3 : S1x1x4096x2048.BroadcastsInDim S2x16x4096x2048 (![0, 1, 2, 3] : Fin 4 → Fin S2x16x4096x2048.rank)
  reducesTo_S2x16x4096x2048_S2x16x4096_d3 : S2x16x4096x2048.ReducesTo [3] S2x16x4096
  h_S_ : 0 < S_.numel

variable [Facts₀]

class Facts : Prop extends Facts₀ where

variable [Facts]
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.Spec.lean ====
/-
  What both programs compute.

  For a feature tensor `x` of shape [2, 16, 2048] and an incidence matrix `bt` of shape [4096, 2048], the result at
  `(b, c, q)` is the greatest of the 2048 products `x (b, c, n) · bt (q, n)`, the maximum taken from −∞ (the float
  word 0xFF800000, kept as a word: both programs start their maximum from the same one).  Over the extended reals the
  product is commutative, so the order of the two factors does not matter (`rowPool_comm`); nothing else is needed to
  join the two programs, and in particular no entry has to be finite.
-/
import Idealize.ShloMosaic.Lib.ValueIdx
import Idealize.ShloMosaic.PureOps.Ideal

noncomputable section

namespace Cert.Pool

open Idealize.ShloMosaic Idealize.ShloMosaic.ValueIdx

/-- The greatest of the 2048 products of two rows, entry by entry, from −∞. -/
def rowPool (u v : Fin 2048 → EReal) : EReal :=
  (Finset.univ : Finset (Fin 2048)).fold max (Ideal.ofBits .f32 0xFF800000#32) (fun n => u n * v n)

/-- The two rows may be exchanged: the product of extended reals is commutative. -/
theorem rowPool_comm (u v : Fin 2048 → EReal) : rowPool u v = rowPool v u :=
  congrArg (fun f => (Finset.univ : Finset (Fin 2048)).fold max (Ideal.ofBits .f32 0xFF800000#32) f)
    (funext fun n => mul_comm (u n) (v n))

/-- The result tensor: at `(b, c, q)` the greatest product of feature row `(b, c)` with incidence row `q`. -/
def pooled (x : (⟨3, ![2, 16, 2048]⟩ : Shape).Idx → EReal) (bt : (⟨2, ![4096, 2048]⟩ : Shape).Idx → EReal) :
    (⟨3, ![2, 16, 4096]⟩ : Shape).Idx → EReal :=
  fun i => rowPool (fun n => x (ix3 (i 0) (i 1) n)) (fun n => bt (ix2 (i 2) n))

/-- The same at an index given by its coordinates. -/
theorem pooled_apply (x : (⟨3, ![2, 16, 2048]⟩ : Shape).Idx → EReal) (bt : (⟨2, ![4096, 2048]⟩ : Shape).Idx → EReal)
    (b : Fin 2) (c : Fin 16) (q : Fin 4096) :
    pooled x bt (ix3 b c q) = rowPool (fun n => x (ix3 b c n)) (fun n => bt (ix2 q n)) := rfl

end Cert.Pool

end
-- ==== Proof.Payload.lean ====
/-
  The tiles the kernel body stores, as values.

  The body works on one 512-row block of the incidence matrix at a time.  It cuts the block into four chunks of 128
  rows, and the 32 feature rows into four groups of eight.  For a chunk `b` and a feature row `xr` it forms the
  128 × 2048 array of products `b (j, n) · xr (0, n)` (the row is broadcast down the chunk) and takes, per chunk row
  `j`, the maximum over `n` from −∞: `rowMax b xr`, a vector of 128 maxima.  Eight such vectors, one per feature row
  of a group, are laid as the eight rows of an 8 × 128 tile (`stack8`), which one store writes.

  Each of the sixteen stored tiles is, by unfolding its definition, such a stack of row maxima (`pay…_eq`); read at
  `(k, j)` the stack is the `k`-th vector at `j` (`stack8_apply`), and a vector of row maxima read at `j` is the
  greatest product of chunk row `j` with the feature row (`rowMax_apply`).
-/
import proofs.«142128_j16217796509773_2_alg».proof.Proof.Gen.KernelIdeal.Skeleton
import proofs.«142128_j16217796509773_2_alg».proof.Proof.LibRowMax
import proofs.«142128_j16217796509773_2_alg».proof.Proof.Spec
import Idealize.ShloMosaic.Lib.Pipeline.Value
import Idealize.ShloMosaic.Lib.ValueIdx

noncomputable section

namespace Cert.KernelIdeal.PoolValue

open Cert.KernelIdeal Cert.KernelIdeal.Gen Idealize.ShloMosaic Idealize.ShloMosaic.ValueIdx

variable {F : FTy → Type} [FloatOps F]

/-- One feature row against a chunk of 128 incidence rows: per chunk row, the maximum from −∞ of the products with
    the feature row. -/
def rowMax (b : Vec F S128x2048 .f32) (xr : Vec F S1x2048 .f32) : FVec F S128 .f32 :=
  multiReduction .maximumf [1] S128
    (mulf b (broadcastTo S128x2048 (shapeCast S1x2048 xr shapeCasts_S1x2048_S1x2048) broadcasts_S1x2048_S128x2048))
    0xFF800000#32 reduces_S128x2048_S128 (.inl rfl) rfl

/-- Eight vectors of 128 entries laid as the rows of an 8 × 128 tile. -/
def stack8 (v0 v1 v2 v3 v4 v5 v6 v7 : FVec F S128 .f32) : FVec F S8x128 .f32 :=
  concatenate S8x128 0
    [⟨S1x128, shapeCast S1x128 v0 shapeCasts_S128_S1x128⟩, ⟨S1x128, shapeCast S1x128 v1 shapeCasts_S128_S1x128⟩,
     ⟨S1x128, shapeCast S1x128 v2 shapeCasts_S128_S1x128⟩, ⟨S1x128, shapeCast S1x128 v3 shapeCasts_S128_S1x128⟩,
     ⟨S1x128, shapeCast S1x128 v4 shapeCasts_S128_S1x128⟩, ⟨S1x128, shapeCast S1x128 v5 shapeCasts_S128_S1x128⟩,
     ⟨S1x128, shapeCast S1x128 v6 shapeCasts_S128_S1x128⟩, ⟨S1x128, shapeCast S1x128 v7 shapeCasts_S128_S1x128⟩]
    concatenates_S1x128_S1x128_S1x128_S1x128_S1x128_S1x128_S1x128_S1x128_S8x128_d0

/-! ## Each stored tile is a stack of eight row maxima

The body's text is cut into named pieces by position, so the sixteen tiles are spelt in three ways (seven maxima taken
before the cut and one after; four before, one row already cast, three after; two before and six after).  All are the
same value. -/

section Tiles

variable (b : Vec F S128x2048 .f32) (x0 x1 x2 x3 x4 x5 x6 x7 : Vec F S1x2048 .f32)

theorem pay9_eq :
    k0_pay9 b (k0_pay2 b x0) (k0_pay3 b x1) (k0_pay4 b x2) (k0_pay5 b x3) (k0_pay6 b x4) (k0_pay7 b x5) (k0_pay8 b x6) x7
      = stack8 (rowMax b x0) (rowMax b x1) (rowMax b x2) (rowMax b x3) (rowMax b x4) (rowMax b x5) (rowMax b x6) (rowMax b x7) := rfl
theorem pay15_eq :
    k0_pay15 b (k0_pay10 b x0) (k0_pay11 b x1) (k0_pay12 b x2) (k0_pay13 b x3) (k0_pay14 x4) x5 x6 x7
      = stack8 (rowMax b x0) (rowMax b x1) (rowMax b x2) (rowMax b x3) (rowMax b x4) (rowMax b x5) (rowMax b x6) (rowMax b x7) := rfl
theorem pay18_eq :
    k0_pay18 b (k0_pay16 b x0) (k0_pay17 b x1) x2 x3 x4 x5 x6 x7
      = stack8 (rowMax b x0) (rowMax b x1) (rowMax b x2) (rowMax b x3) (rowMax b x4) (rowMax b x5) (rowMax b x6) (rowMax b x7) := rfl
theorem pay26_eq :
    k0_pay26 b (k0_pay19 b x0) (k0_pay20 b x1) (k0_pay21 b x2) (k0_pay22 b x3) (k0_pay23 b x4) (k0_pay24 b x5) (k0_pay25 b x6) x7
      = stack8 (rowMax b x0) (rowMax b x1) (rowMax b x2) (rowMax b x3) (rowMax b x4) (rowMax b x5) (rowMax b x6) (rowMax b x7) := rfl
theorem pay32_eq :
    k0_pay32 b (k0_pay27 b x0) (k0_pay28 b x1) (k0_pay29 b x2) (k0_pay30 b x3) (k0_pay31 x4) x5 x6 x7
      = stack8 (rowMax b x0) (rowMax b x1) (rowMax b x2) (rowMax b x3) (rowMax b x4) (rowMax b x5) (rowMax b x6) (rowMax b x7) := rfl
theorem pay35_eq :
    k0_pay35 b (k0_pay33 b x0) (k0_pay34 b x1) x2 x3 x4 x5 x6 x7
      = stack8 (rowMax b x0) (rowMax b x1) (rowMax b x2) (rowMax b x3) (rowMax b x4) (rowMax b x5) (rowMax b x6) (rowMax b x7) := rfl
theorem pay43_eq :
    k0_pay43 b (k0_pay36 b x0) (k0_pay37 b x1) (k0_pay38 b x2) (k0_pay39 b x3) (k0_pay40 b x4) (k0_pay41 b x5) (k0_pay42 b x6) x7
      = stack8 (rowMax b x0) (rowMax b x1) (rowMax b x2) (rowMax b x3) (rowMax b x4) (rowMax b x5) (rowMax b x6) (rowMax b x7) := rfl
theorem pay49_eq :
    k0_pay49 b (k0_pay44 b x0) (k0_pay45 b x1) (k0_pay46 b x2) (k0_pay47 b x3) (k0_pay48 x4) x5 x6 x7
      = stack8 (rowMax b x0) (rowMax b x1) (rowMax b x2) (rowMax b x3) (rowMax b x4) (rowMax b x5) (rowMax b x6) (rowMax b x7) := rfl
theorem pay52_eq :
    k0_pay52 b (k0_pay50 b x0) (k0_pay51 b x1) x2 x3 x4 x5 x6 x7
      = stack8 (rowMax b x0) (rowMax b x1) (rowMax b x2) (rowMax b x3) (rowMax b x4) (rowMax b x5) (rowMax b x6) (rowMax b x7) := rfl
theorem pay60_eq :
    k0_pay60 b (k0_pay53 b x0) (k0_pay54 b x1) (k0_pay55 b x2) (k0_pay56 b x3) (k0_pay57 b x4) (k0_pay58 b x5) (k0_pay59 b x6) x7
      = stack8 (rowMax b x0) (rowMax b x1) (rowMax b x2) (rowMax b x3) (rowMax b x4) (rowMax b x5) (rowMax b x6) (rowMax b x7) := rfl
theorem pay66_eq :
    k0_pay66 b (k0_pay61 b x0) (k0_pay62 b x1) (k0_pay63 b x2) (k0_pay64 b x3) (k0_pay65 x4) x5 x6 x7
      = stack8 (rowMax b x0) (rowMax b x1) (rowMax b x2) (rowMax b x3) (rowMax b x4) (rowMax b x5) (rowMax b x6) (rowMax b x7) := rfl
theorem pay69_eq :
    k0_pay69 b (k0_pay67 b x0) (k0_pay68 b x1) x2 x3 x4 x5 x6 x7
      = stack8 (rowMax b x0) (rowMax b x1) (rowMax b x2) (rowMax b x3) (rowMax b x4) (rowMax b x5) (rowMax b x6) (rowMax b x7) := rfl
theorem pay77_eq :
    k0_pay77 b (k0_pay70 b x0) (k0_pay71 b x1) (k0_pay72 b x2) (k0_pay73 b x3) (k0_pay74 b x4) (k0_pay75 b x5) (k0_pay76 b x6) x7
      = stack8 (rowMax b x0) (rowMax b x1) (rowMax b x2) (rowMax b x3) (rowMax b x4) (rowMax b x5) (rowMax b x6) (rowMax b x7) := rfl
theorem pay83_eq :
    k0_pay83 b (k0_pay78 b x0) (k0_pay79 b x1) (k0_pay80 b x2) (k0_pay81 b x3) (k0_pay82 x4) x5 x6 x7
      = stack8 (rowMax b x0) (rowMax b x1) (rowMax b x2) (rowMax b x3) (rowMax b x4) (rowMax b x5) (rowMax b x6) (rowMax b x7) := rfl
theorem pay86_eq :
    k0_pay86 b (k0_pay84 b x0) (k0_pay85 b x1) x2 x3 x4 x5 x6 x7
      = stack8 (rowMax b x0) (rowMax b x1) (rowMax b x2) (rowMax b x3) (rowMax b x4) (rowMax b x5) (rowMax b x6) (rowMax b x7) := rfl
theorem pay1_eq :
    k0_pay1 b (k0_pay87 b x0) (k0_pay88 b x1) (k0_pay89 b x2) (k0_pay90 b x3) (k0_pay91 b x4) (k0_pay92 b x5) (k0_pay93 b x6) x7
      = stack8 (rowMax b x0) (rowMax b x1) (rowMax b x2) (rowMax b x3) (rowMax b x4) (rowMax b x5) (rowMax b x6) (rowMax b x7) := rfl

end Tiles

/-! ## The stack and the row maxima read at an index -/

/-- A vector laid as the one row of a 1 × 128 array, read at `(0, j)`, is the vector at `j`. -/
theorem row_cast_apply (w : FVec F S128 .f32) (j : Fin 128) :
    shapeCast S1x128 w shapeCasts_S128_S1x128 (ix2 (0 : Fin 1) j) = w (ix1 j) :=
  (shapeCast_addUnit_apply ![128] w shapeCasts_S128_S1x128 (ix2 (0 : Fin 1) j)).trans
    (congrArg w (funext fun a => by match a with | ⟨0, _⟩ => rfl))

/-- Row `k` of the stack is the `k`-th vector: piece `k` of the concatenation starts at row `k`, every piece being
    one row tall. -/
theorem stack8_apply (v : Fin 8 → FVec F S128 .f32) (k : Fin 8) (j : Fin 128) :
    stack8 (v 0) (v 1) (v 2) (v 3) (v 4) (v 5) (v 6) (v 7) (ix2 k j) = v k (ix1 j) := by
  unfold stack8
  have off : ∀ b : Fin S1x128.rank, b.cast (rfl : S1x128.rank = S8x128.rank) ≠ (0 : Fin S8x128.rank) →
      ∀ K : Fin 8, ((ix2 (0 : Fin 1) j : S1x128.Idx) b).val = ((ix2 K j : S8x128.Idx) (b.cast rfl)).val := fun b hb K => by
    match b with
    | ⟨0, _⟩ => exact absurd rfl hb
    | ⟨1, _⟩ => rfl
  match k with
  | ⟨0, _⟩ =>
    exact (concatenate_apply_piece (0 : Fin S8x128.rank) _ _ (ix2 ⟨0, _⟩ j) 0 (by show (0 : ℕ) < 8; decide) S1x128 _ rfl rfl 0 rfl
      (ix2 (0 : Fin 1) j) (fun b hb => off b hb _) rfl).trans (row_cast_apply (v 0) j)
  | ⟨1, _⟩ =>
    exact (concatenate_apply_piece (0 : Fin S8x128.rank) _ _ (ix2 ⟨1, _⟩ j) 1 (by show (1 : ℕ) < 8; decide) S1x128 _ rfl rfl 1 rfl
      (ix2 (0 : Fin 1) j) (fun b hb => off b hb _) rfl).trans (row_cast_apply (v 1) j)
  | ⟨2, _⟩ =>
    exact (concatenate_apply_piece (0 : Fin S8x128.rank) _ _ (ix2 ⟨2, _⟩ j) 2 (by show (2 : ℕ) < 8; decide) S1x128 _ rfl rfl 2 rfl
      (ix2 (0 : Fin 1) j) (fun b hb => off b hb _) rfl).trans (row_cast_apply (v 2) j)
  | ⟨3, _⟩ =>
    exact (concatenate_apply_piece (0 : Fin S8x128.rank) _ _ (ix2 ⟨3, _⟩ j) 3 (by show (3 : ℕ) < 8; decide) S1x128 _ rfl rfl 3 rfl
      (ix2 (0 : Fin 1) j) (fun b hb => off b hb _) rfl).trans (row_cast_apply (v 3) j)
  | ⟨4, _⟩ =>
    exact (concatenate_apply_piece (0 : Fin S8x128.rank) _ _ (ix2 ⟨4, _⟩ j) 4 (by show (4 : ℕ) < 8; decide) S1x128 _ rfl rfl 4 rfl
      (ix2 (0 : Fin 1) j) (fun b hb => off b hb _) rfl).trans (row_cast_apply (v 4) j)
  | ⟨5, _⟩ =>
    exact (concatenate_apply_piece (0 : Fin S8x128.rank) _ _ (ix2 ⟨5, _⟩ j) 5 (by show (5 : ℕ) < 8; decide) S1x128 _ rfl rfl 5 rfl
      (ix2 (0 : Fin 1) j) (fun b hb => off b hb _) rfl).trans (row_cast_apply (v 5) j)
  | ⟨6, _⟩ =>
    exact (concatenate_apply_piece (0 : Fin S8x128.rank) _ _ (ix2 ⟨6, _⟩ j) 6 (by show (6 : ℕ) < 8; decide) S1x128 _ rfl rfl 6 rfl
      (ix2 (0 : Fin 1) j) (fun b hb => off b hb _) rfl).trans (row_cast_apply (v 6) j)
  | ⟨7, _⟩ =>
    exact (concatenate_apply_piece (0 : Fin S8x128.rank) _ _ (ix2 ⟨7, _⟩ j) 7 (by show (7 : ℕ) < 8; decide) S1x128 _ rfl rfl 7 rfl
      (ix2 (0 : Fin 1) j) (fun b hb => off b hb _) rfl).trans (row_cast_apply (v 7) j)

/-- A vector of row maxima at `j`: the greatest product of chunk row `j` with the feature row, from −∞. -/
theorem rowMax_apply (b : Vec Ideal S128x2048 .f32) (xr : Vec Ideal S1x2048 .f32) (j : Fin 128) :
    rowMax (F := Ideal) b xr (ix1 j)
      = Cert.Pool.rowPool (fun n => b (ix2 j n)) (fun n => xr (ix2 (0 : Fin 1) n)) := by
  unfold rowMax
  refine (Cert.LibRowMax.multiReduction_maximumf_rows _ _ _ _ _ j).trans ?_
  refine congrArg (fun f => (Finset.univ : Finset (Fin 2048)).fold max (Ideal.ofBits .f32 0xFF800000#32) f)
    (funext fun n => ?_)
  show mulf (F := Ideal) (φ := .f32) b (broadcastTo S128x2048 (shapeCast S1x2048 xr shapeCasts_S1x2048_S1x2048) broadcasts_S1x2048_S128x2048)
      (ix2 j n) = b (ix2 j n) * xr (ix2 (0 : Fin 1) n)
  rw [mulf_apply, shapeCast_self]
  refine congrArg (fun z => b (ix2 j n) * z) ?_
  exact broadcastTo_apply xr broadcasts_S1x2048_S128x2048 (ix2 j n) (ix2 (0 : Fin 1) n) (fun a => by
    match a with
    | ⟨0, _⟩ => show (0 : Nat) = if (1 : Nat) = 1 then 0 else j.val; rw [if_pos rfl]
    | ⟨1, _⟩ => show n.val = if (2048 : Nat) = 1 then 0 else n.val; rw [if_neg (by decide)])

/-- A stored tile at `(k, j)`: the greatest product of chunk row `j` with the group's `k`-th feature row. -/
theorem tile_apply (b : Vec Ideal S128x2048 .f32) (xs : Fin 8 → Vec Ideal S1x2048 .f32) (k : Fin 8) (j : Fin 128) :
    stack8 (rowMax b (xs 0)) (rowMax b (xs 1)) (rowMax b (xs 2)) (rowMax b (xs 3)) (rowMax b (xs 4)) (rowMax b (xs 5))
        (rowMax b (xs 6)) (rowMax b (xs 7)) (ix2 k j)
      = Cert.Pool.rowPool (fun n => b (ix2 j n)) (fun n => xs k (ix2 (0 : Fin 1) n)) :=
  (stack8_apply (fun i => rowMax b (xs i)) k j).trans (rowMax_apply b (xs k) j)

end Cert.KernelIdeal.PoolValue

end
-- ==== Proof.Block.lean ====
/-
  What the body leaves in the output block, as one function of the two input blocks.

  The body holds the 32 feature rows `x0` (32 × 2048) and one block `x1` of 512 incidence rows (512 × 2048), and
  writes a 32 × 512 block by sixteen stores of 8 × 128 tiles.  The tile stored at rows `R … R+7`, columns
  `C … C+127` is computed from the chunk of incidence rows `C … C+127` and the feature rows `R … R+7`, so its entry
  `(k, j)` is the greatest product of incidence row `C + j` with feature row `R + k` — the value at the block's
  position `(R + k, C + j)` of ONE function of the block index, `blockPool`.  The sixteen tiles tile the block, so
  the block holds `blockPool` everywhere.
-/
import proofs.«142128_j16217796509773_2_alg».proof.Proof.Gen.KernelIdeal.Frame
import proofs.«142128_j16217796509773_2_alg».proof.Proof.Payload

noncomputable section

namespace Cert.KernelIdeal.PoolValue

open Cert.KernelIdeal Cert.KernelIdeal.Gen Idealize.ShloMosaic Idealize.ShloMosaic.ValueIdx

/-- The output block: at `(r, q)` the greatest product of incidence row `q` of the block with feature row `r`. -/
def blockPool (x0 : Vec Ideal S32x2048 .f32) (x1 : Vec Ideal S512x2048 .f32) : S32x512.Idx → EReal :=
  fun y => Cert.Pool.rowPool (fun n => x1 (ix2 (y 1) n)) (fun n => x0 (ix2 (y 0) n))

/-- ONE TILE: the stack of row maxima of the chunk at incidence rows `C …` against the feature rows `ro 0 … ro 7`
    (which are `R … R+7`) is `blockPool` read through the store's rectangle at `(R, C)`. -/
theorem tile_eq (x0 : Vec Ideal S32x2048 .f32) (x1 : Vec Ideal S512x2048 .f32) (R C : ℕ)
    (hs : ∀ a, (![R, C] : Fin 2 → ℕ) a + S8x128.size a ≤ S32x512.size a)
    (hc : ∀ a, (![C, 0] : Fin 2 → ℕ) a + S128x2048.size a ≤ S512x2048.size a)
    (ro : Fin 8 → ℕ) (hro : ∀ k, ro k = R + k.val)
    (hr : ∀ k, ∀ a, (![ro k, 0] : Fin 2 → ℕ) a + S1x2048.size a ≤ S32x2048.size a)
    (x : S8x128.Idx) :
    stack8
        (rowMax (View.ld x1 (Rect.unit (s := S512x2048) ![C, 0] S128x2048.size hc)) (View.ld x0 (Rect.unit (s := S32x2048) ![ro 0, 0] S1x2048.size (hr 0))))
        (rowMax (View.ld x1 (Rect.unit (s := S512x2048) ![C, 0] S128x2048.size hc)) (View.ld x0 (Rect.unit (s := S32x2048) ![ro 1, 0] S1x2048.size (hr 1))))
        (rowMax (View.ld x1 (Rect.unit (s := S512x2048) ![C, 0] S128x2048.size hc)) (View.ld x0 (Rect.unit (s := S32x2048) ![ro 2, 0] S1x2048.size (hr 2))))
        (rowMax (View.ld x1 (Rect.unit (s := S512x2048) ![C, 0] S128x2048.size hc)) (View.ld x0 (Rect.unit (s := S32x2048) ![ro 3, 0] S1x2048.size (hr 3))))
        (rowMax (View.ld x1 (Rect.unit (s := S512x2048) ![C, 0] S128x2048.size hc)) (View.ld x0 (Rect.unit (s := S32x2048) ![ro 4, 0] S1x2048.size (hr 4))))
        (rowMax (View.ld x1 (Rect.unit (s := S512x2048) ![C, 0] S128x2048.size hc)) (View.ld x0 (Rect.unit (s := S32x2048) ![ro 5, 0] S1x2048.size (hr 5))))
        (rowMax (View.ld x1 (Rect.unit (s := S512x2048) ![C, 0] S128x2048.size hc)) (View.ld x0 (Rect.unit (s := S32x2048) ![ro 6, 0] S1x2048.size (hr 6))))
        (rowMax (View.ld x1 (Rect.unit (s := S512x2048) ![C, 0] S128x2048.size hc)) (View.ld x0 (Rect.unit (s := S32x2048) ![ro 7, 0] S1x2048.size (hr 7))))
        x
      = blockPool x0 x1 ((Rect.unit (s := S32x512) ![R, C] S8x128.size hs).emb x) := by
  obtain ⟨k, j, rfl⟩ : ∃ (k : Fin 8) (j : Fin 128), x = ix2 k j := ⟨x 0, x 1, eq_ix2 x⟩
  refine (tile_apply _ (fun i => View.ld x0 (Rect.unit (s := S32x2048) ![ro i, 0] S1x2048.size (hr i))) k j).trans ?_
  unfold blockPool
  refine congrArg₂ Cert.Pool.rowPool (funext fun n => congrArg x1 (funext fun a => Fin.ext ?_))
    (funext fun n => congrArg x0 (funext fun a => Fin.ext ?_))
  · match a with
    | ⟨0, _⟩ => show C + 1 * j.val = C + 1 * j.val; rfl
    | ⟨1, _⟩ => show 0 + 1 * n.val = n.val; omega
  · match a with
    | ⟨0, _⟩ => show ro k + 1 * 0 = R + 1 * k.val; rw [hro k]; omega
    | ⟨1, _⟩ => show 0 + 1 * n.val = n.val; omega

/-- THE OUTPUT BLOCK after the body is `blockPool` of the two input blocks: each of the sixteen stored tiles is
    `blockPool` through its rectangle, and the tiles cover the block. -/
theorem out_block (x0 : Vec Ideal S32x2048 .f32) (x1 : Vec Ideal S512x2048 .f32) (y : S32x512.Idx) :
    out0_2 (F := Ideal) x0 x1 y = blockPool x0 x1 y := by
  unfold out0_2
  refine View.canon_apply_of_pieces (Val := Elt Ideal) (e := EltTy.f32) (blockPool x0 x1) _ ?_ y (cover0_2 _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl
  · intro x
    exact (congrFun (pay1_eq _ _ _ _ _ _ _ _ _) x).trans
      (tile_eq x0 x1 24 384 (by decide) (by decide) ![24, 25, 26, 27, 28, 29, 30, 31] (by decide) (by decide) x)
  · intro x
    exact (congrFun (pay86_eq _ _ _ _ _ _ _ _ _) x).trans
      (tile_eq x0 x1 24 256 (by decide) (by decide) ![24, 25, 26, 27, 28, 29, 30, 31] (by decide) (by decide) x)
  · intro x
    exact (congrFun (pay83_eq _ _ _ _ _ _ _ _ _) x).trans
      (tile_eq x0 x1 24 128 (by decide) (by decide) ![24, 25, 26, 27, 28, 29, 30, 31] (by decide) (by decide) x)
  · intro x
    exact (congrFun (pay77_eq _ _ _ _ _ _ _ _ _) x).trans
      (tile_eq x0 x1 24 0 (by decide) (by decide) ![24, 25, 26, 27, 28, 29, 30, 31] (by decide) (by decide) x)
  · intro x
    exact (congrFun (pay69_eq _ _ _ _ _ _ _ _ _) x).trans
      (tile_eq x0 x1 16 384 (by decide) (by decide) ![16, 17, 18, 19, 20, 21, 22, 23] (by decide) (by decide) x)
  · intro x
    exact (congrFun (pay66_eq _ _ _ _ _ _ _ _ _) x).trans
      (tile_eq x0 x1 16 256 (by decide) (by decide) ![16, 17, 18, 19, 20, 21, 22, 23] (by decide) (by decide) x)
  · intro x
    exact (congrFun (pay60_eq _ _ _ _ _ _ _ _ _) x).trans
      (tile_eq x0 x1 16 128 (by decide) (by decide) ![16, 17, 18, 19, 20, 21, 22, 23] (by decide) (by decide) x)
  · intro x
    exact (congrFun (pay52_eq _ _ _ _ _ _ _ _ _) x).trans
      (tile_eq x0 x1 16 0 (by decide) (by decide) ![16, 17, 18, 19, 20, 21, 22, 23] (by decide) (by decide) x)
  · intro x
    exact (congrFun (pay49_eq _ _ _ _ _ _ _ _ _) x).trans
      (tile_eq x0 x1 8 384 (by decide) (by decide) ![8, 9, 10, 11, 12, 13, 14, 15] (by decide) (by decide) x)
  · intro x
    exact (congrFun (pay43_eq _ _ _ _ _ _ _ _ _) x).trans
      (tile_eq x0 x1 8 256 (by decide) (by decide) ![8, 9, 10, 11, 12, 13, 14, 15] (by decide) (by decide) x)
  · intro x
    exact (congrFun (pay35_eq _ _ _ _ _ _ _ _ _) x).trans
      (tile_eq x0 x1 8 128 (by decide) (by decide) ![8, 9, 10, 11, 12, 13, 14, 15] (by decide) (by decide) x)
  · intro x
    exact (congrFun (pay32_eq _ _ _ _ _ _ _ _ _) x).trans
      (tile_eq x0 x1 8 0 (by decide) (by decide) ![8, 9, 10, 11, 12, 13, 14, 15] (by decide) (by decide) x)
  · intro x
    exact (congrFun (pay26_eq _ _ _ _ _ _ _ _ _) x).trans
      (tile_eq x0 x1 0 384 (by decide) (by decide) ![0, 1, 2, 3, 4, 5, 6, 7] (by decide) (by decide) x)
  · intro x
    exact (congrFun (pay18_eq _ _ _ _ _ _ _ _ _) x).trans
      (tile_eq x0 x1 0 256 (by decide) (by decide) ![0, 1, 2, 3, 4, 5, 6, 7] (by decide) (by decide) x)
  · intro x
    exact (congrFun (pay15_eq _ _ _ _ _ _ _ _ _) x).trans
      (tile_eq x0 x1 0 128 (by decide) (by decide) ![0, 1, 2, 3, 4, 5, 6, 7] (by decide) (by decide) x)
  · intro x
    exact (congrFun (pay9_eq _ _ _ _ _ _ _ _ _) x).trans
      (tile_eq x0 x1 0 0 (by decide) (by decide) ![0, 1, 2, 3, 4, 5, 6, 7] (by decide) (by decide) x)

end Cert.KernelIdeal.PoolValue

end
-- ==== Proof.Relayout.lean ====
/-
  The two reshapes around the kernel, undone.

  The kernel program flattens the features [2, 16, 2048] to 32 rows (row `16·b + c` is feature row `(b, c)`), fills
  a [32, 4096] array — entry `(r, q)` the greatest product of incidence row `q` with flattened feature row `r` — and
  reshapes that array to [2, 16, 4096].  Reading the result at `(b, c, q)` gives the array's entry `(16·b + c, q)`,
  whose feature row is row `(b, c)` again: the result is the specification, the two factors of each product
  exchanged (`Cert.Pool.rowPool_comm`).
-/
import proofs.«142128_j16217796509773_2_alg».proof.Proof.Spec
import Idealize.ShloMosaic.Lib.Pipeline.Value
import Idealize.ShloMosaic.Lib.ValueIdx

noncomputable section

namespace Cert.Pool

open Idealize.ShloMosaic Idealize.ShloMosaic.ValueIdx

/-- The [32, 4096] array the region fills, from the flattened features `X` and the incidence matrix `B`: at
    `(r, q)` the greatest product of incidence row `q` with feature row `r`. -/
def arrPool (X : (⟨2, ![32, 2048]⟩ : Shape).Idx → EReal) (B : (⟨2, ![4096, 2048]⟩ : Shape).Idx → EReal) :
    (⟨2, ![32, 4096]⟩ : Shape).Idx → EReal :=
  fun i => rowPool (fun n => B (ix2 (i 1) n)) (fun n => X (ix2 (i 0) n))

/-- The same at an index given by its coordinates. -/
theorem arrPool_apply (X : (⟨2, ![32, 2048]⟩ : Shape).Idx → EReal) (B : (⟨2, ![4096, 2048]⟩ : Shape).Idx → EReal)
    (r : Fin 32) (q : Fin 4096) :
    arrPool X B (ix2 r q) = rowPool (fun n => B (ix2 q n)) (fun n => X (ix2 r n)) := rfl

/-- THE KERNEL PROGRAM'S RESULT as a function of its arguments is the specification: reshape, fill, reshape back. -/
theorem relayout_pooled (x : (⟨3, ![2, 16, 2048]⟩ : Shape).Idx → EReal) (bt : (⟨2, ![4096, 2048]⟩ : Shape).Idx → EReal)
    (h1 : (⟨3, ![2, 16, 2048]⟩ : Shape).ShapeCasts ⟨2, ![32, 2048]⟩)
    (h2 : (⟨2, ![32, 4096]⟩ : Shape).ShapeCasts ⟨3, ![2, 16, 4096]⟩) :
    shapeCast ⟨3, ![2, 16, 4096]⟩ (arrPool (shapeCast ⟨2, ![32, 2048]⟩ x h1) bt) h2 = pooled x bt := by
  funext i
  obtain ⟨b, c, q, rfl⟩ : ∃ (b : Fin 2) (c : Fin 16) (q : Fin 4096), i = ix3 b c q := ⟨i 0, i 1, i 2, eq_ix3 i⟩
  have hb : b.val < 2 := b.isLt
  have hc : c.val < 16 := c.isLt
  have hr : b.val * 16 + c.val < 32 := by omega
  refine (shapeCast_apply _ h2 (ix3 b c q) (ix2 ⟨b.val * 16 + c.val, hr⟩ q) (by
    rw [Shape.rowMajor_val_two, Shape.rowMajor_val_three]
    show (b.val * 16 + c.val) * 4096 + q.val = (b.val * 16 + c.val) * 4096 + q.val
    rfl)).trans ?_
  rw [arrPool_apply, pooled_apply, rowPool_comm]
  refine congrArg (fun f => rowPool f (fun n => bt (ix2 q n))) (funext fun n => ?_)
  exact shapeCast_apply x h1 (ix2 ⟨b.val * 16 + c.val, hr⟩ n) (ix3 b c n) (by
    rw [Shape.rowMajor_val_two, Shape.rowMajor_val_three]
    show (b.val * 16 + c.val) * 2048 + n.val = (b.val * 16 + c.val) * 2048 + n.val
    rfl)

end Cert.Pool

end
-- ==== Proof.KernelValue.lean ====
/-
  The kernel program's run, with its result read.

  The region runs the body at eight grid points.  At point `t` the body sees all 32 flattened feature rows (input
  window 0 never moves), incidence rows `512·t … 512·t + 511` (input window 1 moves down the rows) and writes the
  output block of all 32 rows and columns `512·t … 512·t + 511` (the output window moves along the columns).  By
  `out_block` the block written at `t` is the restriction to those columns of ONE function of the whole arrays,
  `Cert.Pool.arrPool` (`flushed_eq`); the eight blocks cover the [32, 4096] array (`cover`), so the array ends
  holding `arrPool` (`final`).  Before the region the features were flattened (`entry_features`), after it the
  array is reshaped to [2, 16, 4096] (`tail_result`); `Cert.Pool.relayout_pooled` reads the composition as the
  specification, and `run` restates the frame run with that result.
-/
import proofs.«142128_j16217796509773_2_alg».proof.Proof.Gen.KernelIdeal.Frame
import proofs.«142128_j16217796509773_2_alg».proof.Proof.Block
import proofs.«142128_j16217796509773_2_alg».proof.Proof.Relayout
import Idealize.ShloMosaic.Lib.Pipeline.Value
import Idealize.ShloMosaic.Lib.StableHlo.Run

noncomputable section

namespace Cert.KernelIdeal.PoolValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where the three windows sit at a grid point -/

/-- Decided over the eight points: the feature window stays at the origin, the incidence window's row block is the
    output window's column block, and both stay at column block 0 / row block 0. -/
theorem idx_facts : ∀ t : Fin cfg0.N,
    win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 :=
  (by decide +kernel : ∀ t : Fin grid0.N, _)

/-- Every column block of the output is some point's. -/
theorem idx_onto : ∀ q : Fin 8, ∃ t : Fin cfg0.N, win0_2.index t = ![0, q.val] :=
  (by decide +kernel : ∀ q : Fin 8, ∃ t : Fin grid0.N, win0_2.index t = ![0, q.val])

/-! ## What a point writes back -/

/-- WHAT POINT `t` WRITES BACK is block `t` of `arrPool` of the arrays as the region finds them. -/
theorem flushed_eq (c : Dev nD) (t : Fin cfg0.N) :
    (dats m 0 c).flushed 2 t
      = ((cfg0.win 2).blk t).view.read (Elt Ideal) (Cert.Pool.arrPool (V m c main_v0) (V m c main_arg1)) := by
  show (cfg0.win 2).cut (grid0.coords t) ((dats m 0 c).after 2 t) = _
  rw [after0_2]
  obtain ⟨e00, e01, e10, e11, e20⟩ := idx_facts t
  funext y
  show out0_2 (iblk m c 0 t) (iblk m c 1 t) y
    = Cert.Pool.arrPool (V m c main_v0) (V m c main_arg1) (((cfg0.win 2).blk t).view.emb y)
  refine (out_block (iblk m c 0 t) (iblk m c 1 t) y).trans ?_
  refine congrArg₂ Cert.Pool.rowPool (funext fun n => ?_) (funext fun n => ?_)
  · show V m c main_arg1 (((cfg0.win 1).blk t).view.emb (ix2 (y 1) n))
      = V m c main_arg1 (ix2 ((((cfg0.win 2).blk t).view.emb y) 1) n)
    refine congrArg (V m c main_arg1) (funext fun a => Fin.ext ?_)
    match a with
    | ⟨0, _⟩ =>
      show win0_1.index t (0 : Fin 2) * 512 + 1 * (y 1).val = win0_2.index t (1 : Fin 2) * 512 + 1 * (y 1).val
      rw [e10]
    | ⟨1, _⟩ =>
      show win0_1.index t (1 : Fin 2) * 2048 + 1 * n.val = n.val
      rw [e11]; omega
  · show V m c main_v0 (((cfg0.win 0).blk t).view.emb (ix2 (y 0) n))
      = V m c main_v0 (ix2 ((((cfg0.win 2).blk t).view.emb y) 0) n)
    refine congrArg (V m c main_v0) (funext fun a => Fin.ext ?_)
    match a with
    | ⟨0, _⟩ =>
      show win0_0.index t (0 : Fin 2) * 32 + 1 * (y 0).val = win0_2.index t (0 : Fin 2) * 32 + 1 * (y 0).val
      rw [e00, e20]
    | ⟨1, _⟩ =>
      show win0_0.index t (1 : Fin 2) * 2048 + 1 * n.val = n.val
      rw [e01]; omega

/-! ## The array after the region -/

/-- An index of the array is in point `t`'s block iff each coordinate is in the block's range on its axis. -/
theorem mem_blk (t : Fin cfg0.N) (i : S32x4096.Idx) :
    i ∈ ((cfg0.win 2).blk t).view.set ↔ ∀ a : Fin 2, win0_2.index t a * S32x512.size a ≤ (i a).val
      ∧ (i a).val < win0_2.index t a * S32x512.size a + S32x512.size a := by
  show i ∈ ((View.whole main_v1).slice (win0_2.rect t)).set ↔ _
  rw [View.set_slice_whole, Rect.mem_set_unit]
  exact Iff.rfl

/-- Column `q` lies in the block of the point whose column block is `q / 512`: the eight blocks cover the array. -/
theorem cover (i : S32x4096.Idx) :
    ∃ t : Fin cfg0.N, (cfg0.win 2).flush t = true ∧ i ∈ ((cfg0.win 2).blk t).view.set := by
  have hi0 : (i 0).val < 32 := (i 0).isLt
  have hi1 : (i 1).val < 4096 := (i 1).isLt
  obtain ⟨t, ht⟩ := idx_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 512 ≤ (i 1).val ∧ (i 1).val < win0_2.index t (1 : Fin 2) * 512 + 512
    omega

/-- THE ARRAY after the region is `arrPool` of the arrays as the region finds them. -/
theorem final (c : Dev nD) :
    (dats m 0 c).arrAt 2 cfg0.N = Cert.Pool.arrPool (V m c main_v0) (V m c main_arg1) :=
  (dats m 0 c).arrAt_eq_of_cover 2 _ (fun t _ => flushed_eq m c t) cover

/-! ## The host lines around the region -/

/-- The region finds the features flattened to 32 rows. -/
theorem entry_features (c : Dev nD) :
    (V m c main_v0 : S32x2048.Idx → EReal)
      = shapeCast S32x2048 (m ((c : Thread nD τ).loc main_arg0)) shapeCasts_S2x16x2048_S32x2048 := by
  show StableHlo.after hostOps0 (fun b => m (c, b)) (Proc.devRef .tc main_v0) = _
  after_results
  rfl

/-- The line after the region reshapes the filled array to [2, 16, 4096]. -/
theorem tail_result (c : Dev nD) :
    Pipeline.afterTail₀ cfgs (dats m) 0 (V0 m) [hostOps1] c main_v2
      = shapeCast S2x16x4096 ((dats m 0 c).arrAt 2 cfg0.N) shapeCasts_S32x4096_S2x16x4096 := by
  unfold Pipeline.afterTail₀
  show StableHlo.after hostOps1 _ (Proc.devRef .tc main_v2) = _
  after_results
  exact congrArg (fun A : S32x4096.Idx → EReal => shapeCast S2x16x4096 A shapeCasts_S32x4096_S2x16x4096)
    (Pipeline.withArrays_arr spec0 launch0.win.arr_inj c (V0 m c) (fun w => (dats m 0 c).arrAt w cfg0.N) 2)

/-! ## The run, read -/

/-- The program's result buffer after the run is the specification of the argument arrays: the tail's reshape of the
    filled array, the array `arrPool` of the flattened features and the incidence matrix as launched. -/
theorem result_pooled (c : Dev nD) :
    Pipeline.afterTail₀ cfgs (dats m) 0 (V0 m) [hostOps1] c main_v2
      = Cert.Pool.pooled (m ((c : Thread nD τ).loc main_arg0)) (m ((c : Thread nD τ).loc main_arg1)) := by
  rw [tail_result, final, entry_features, V_main_arg1]
  exact Cert.Pool.relayout_pooled _ _ shapeCasts_S2x16x2048_S32x2048 shapeCasts_S32x4096_S2x16x4096

/-- THE KERNEL PROGRAM'S RUN: every weakly fair execution terminates with the result buffer at the specification of
    the argument arrays and the arguments unchanged (the generated frame run, its post read). -/
theorem run : θ_run defs (onTc (τ := τ) (main (F := Ideal))) ⟨m, fun _ => 0, ρ⟩ fun r => ∀ c : Dev nD,
      r.2.mem ((c.tc : Thread nD τ).loc main_v2)
        = Cert.Pool.pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_pooled m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.PoolValue

end
-- ==== Proof.LibMaxLast4.lean ====
/-
  Last-axis maxima of a rank-4 float array, read at the extended reals with indices given by coordinates.

  The maximum of an `a × b × c × d` array along its last axis, taken from a starting value, is at `(i, j, k)` the
  maximum of that value and the `d` entries `(i, j, k, n)` — written here as the fold of `max` from the starting
  value over `n`, for a host reduction with a `maximum` body (whose starting value is its scalar operand).  Indices are
  written with the literal-size constructors `ix3`, `ix4`, so that the lemma applies to a printed operation by
  unification.
-/
import Idealize.ShloMosaic.Lib.ValueIdx
import Idealize.ShloMosaic.PureOps.Ideal.Laws

namespace Cert.LibMaxLast4

open Idealize.ShloMosaic Idealize.ShloMosaic.ValueIdx

variable {φ : FTy}

/-- Inserting `n` into the rank-3 index `(i, j, k)` at the last axis gives the index `(i, j, k, n)`. -/
theorem lift_last {a b c d : ℕ} (h : (⟨4, ![a, b, c, d]⟩ : Shape).Reduces [3] ⟨3, ![a, b, c]⟩)
    (i : Fin a) (j : Fin b) (k : Fin c) (n : Fin d) :
    h.lift (ix3 i j k) n = ix4 i j k n :=
  funext fun ax => Fin.ext (by
    refine (h.lift_val (ix3 i j k) n ax).trans ?_
    unfold Shape.Reduces.liftVal
    match ax with
    | ⟨0, _⟩ => rfl
    | ⟨1, _⟩ => rfl
    | ⟨2, _⟩ => rfl
    | ⟨3, _⟩ => rfl)

/-- LAST-AXIS MAXIMA of a host reduction with a `maximum` body: at `(i, j, k)`, the fold of `max` from the initial
    value over the last coordinate. -/
theorem hostReduce_maximumf_last {a b c d : ℕ} {u : Shape} (x : FVec Ideal ⟨4, ![a, b, c, d]⟩ φ)
    (init : u.Idx → Ideal φ)
    (h' : (⟨4, ![a, b, c, d]⟩ : Shape).ReducesTo [3] ⟨3, ![a, b, c]⟩)
    (h : (⟨4, ![a, b, c, d]⟩ : Shape).Reduces [3] ⟨3, ![a, b, c]⟩)
    (hu : 0 < u.numel) (i : Fin a) (j : Fin b) (k : Fin c) :
    Host.reduce (FloatOps.maximumf (F := Ideal) (φ := φ)) x init h' hu (ix3 i j k)
      = (Finset.univ : Finset (Fin d)).fold max (init (Shape.Idx.first hu)) (fun n => x (ix4 i j k n)) := by
  refine (Host.reduce_eq_fold_single (FloatOps.maximumf (F := Ideal) (φ := φ)) x init h' h hu (ix3 i j k)).trans ?_
  exact congrArg (fun f => (Finset.univ : Finset (Fin d)).fold max (init (Shape.Idx.first hu)) f)
    (funext fun n => congrArg x (lift_last h i j k n))

end Cert.LibMaxLast4
-- ==== Proof.RefValue.lean ====
/-
  The reference's result is the specification.

  The reference broadcasts the features to [2, 16, 4096, 2048] (entry `(b, c, q, n)` is `x (b, c, n)`) and the
  incidence matrix to the same shape (entry `(b, c, q, n)` is `bt (q, n)`), multiplies entry by entry, and takes the
  maximum over the last axis from −∞.  So its result at `(b, c, q)` is the greatest of the products
  `x (b, c, n) · bt (q, n)` over `n`, from −∞: `Cert.Pool.pooled`.
-/
import proofs.«142128_j16217796509773_2_alg».proof.Proof.Gen.ReferenceIdeal.Read
import proofs.«142128_j16217796509773_2_alg».proof.Proof.Spec
import proofs.«142128_j16217796509773_2_alg».proof.Proof.LibMaxLast4

noncomputable section

namespace Cert.ReferenceIdeal.RefValue

open Cert.ReferenceIdeal Cert.ReferenceIdeal.Gen Cert.ReferenceIdeal.Read Idealize.ShloMosaic
open Idealize.ShloMosaic.ValueIdx

/-- The reduction drops the last of the four axes. -/
theorem reduces_last : S2x16x4096x2048.Reduces [3] S2x16x4096 := by decide

/-- The product array at `(b, c, q, n)` is `x (b, c, n) · bt (q, n)`: each broadcast reads its operand at the
    coordinates it keeps. -/
theorem products_apply (x0 : (⟨S2x16x2048, .f32⟩ : BufTy).Contents (Elt Ideal))
    (x1 : (⟨S4096x2048, .f32⟩ : BufTy).Contents (Elt Ideal)) (b : Fin 2) (c : Fin 16) (q : Fin 4096) (n : Fin 2048) :
    val_main_v4 (F := Ideal) x0 x1 (ix4 b c q n) = x0 (ix3 b c n) * x1 (ix2 q n) := by
  have e0 : idx_main_v0 (idx_main_v2 (ix4 b c q n)) = ix3 b c n :=
    funext fun a => Fin.ext (by match a with | ⟨0, _⟩ => rfl | ⟨1, _⟩ => rfl | ⟨2, _⟩ => rfl)
  have e1 : idx_main_v1 (idx_main_v3 (ix4 b c q n)) = ix2 q n :=
    funext fun a => Fin.ext (by match a with | ⟨0, _⟩ => rfl | ⟨1, _⟩ => rfl)
  rw [val_main_v4_apply, val_main_v2_apply, val_main_v0_apply, val_main_v3_apply, val_main_v1_apply, e0, e1]
  rfl

/-- THE REFERENCE'S RESULT is the specification of the argument arrays. -/
theorem reference_pooled (x0 : (⟨S2x16x2048, .f32⟩ : BufTy).Contents (Elt Ideal))
    (x1 : (⟨S4096x2048, .f32⟩ : BufTy).Contents (Elt Ideal)) :
    val_main_v5 (F := Ideal) x0 x1 = Cert.Pool.pooled x0 x1 := by
  funext i
  obtain ⟨b, c, q, rfl⟩ : ∃ (b : Fin 2) (c : Fin 16) (q : Fin 4096), i = ix3 b c q := ⟨i 0, i 1, i 2, eq_ix3 i⟩
  unfold val_main_v5
  refine (Cert.LibMaxLast4.hostReduce_maximumf_last (val_main_v4 (F := Ideal) x0 x1) (val_main_cst (F := Ideal))
    reducesTo_S2x16x4096x2048_S2x16x4096_d3 reduces_last h_S_ b c q).trans ?_
  rw [Cert.Pool.pooled_apply]
  exact congrArg (fun f => (Finset.univ : Finset (Fin 2048)).fold max (Ideal.ofBits .f32 0xFF800000#32) f)
    (funext fun n => products_apply x0 x1 b c q n)

end Cert.ReferenceIdeal.RefValue

end
-- ==== Proof.lean ====
/-
  Max-pooling of products: `v (b, c, q) = max over n of x (b, c, n) · bt (q, n)`, for `x` of shape [2, 16, 2048] and
  `bt` of shape [4096, 2048].

  The kernel program flattens the features to 32 rows and runs a grid of eight points; at each it holds all 32 feature
  rows and 512 incidence rows, and for each feature row and each incidence row takes the maximum from −∞ of the 2048
  products incidence · feature, storing the results as sixteen 8 × 128 tiles; the [32, 4096] array is then reshaped to
  [2, 16, 4096].  The reference broadcasts both operands to [2, 16, 4096, 2048], multiplies feature · incidence, and
  takes the maximum from −∞ over the last axis.  Over the extended reals both results are the same function of the
  arguments, `Cert.Pool.pooled`: the maximum is a fold of `max` over the same 2048 products from the same starting
  value, and the two products differ only in the order of their factors, which commute.  No entry needs to be finite
  for this, so the precondition is never opened.

  The three frames are the generated ones (the reference's is its generated run with the result dropped); the kernel is
  its own idealization (no operation was rewritten), so `preserves` asks nothing; `algebraic` sets the kernel
  program's run (`PoolValue.run`) beside the reference's run, both posted at `pooled` of the arguments.
-/
import proofs.«142128_j16217796509773_2_alg».proof.Defs
import proofs.«142128_j16217796509773_2_alg».proof.Proof.Gen.Kernel
import proofs.«142128_j16217796509773_2_alg».proof.Proof.Gen.Kernel.Skeleton
import proofs.«142128_j16217796509773_2_alg».proof.Proof.Gen.Kernel.Launch
import proofs.«142128_j16217796509773_2_alg».proof.Proof.Gen.Kernel.Points
import proofs.«142128_j16217796509773_2_alg».proof.Proof.Gen.Kernel.Frame
import proofs.«142128_j16217796509773_2_alg».proof.Proof.Gen.KernelIdeal
import proofs.«142128_j16217796509773_2_alg».proof.Proof.Gen.KernelIdeal.Skeleton
import proofs.«142128_j16217796509773_2_alg».proof.Proof.Gen.KernelIdeal.Launch
import proofs.«142128_j16217796509773_2_alg».proof.Proof.Gen.KernelIdeal.Points
import proofs.«142128_j16217796509773_2_alg».proof.Proof.Gen.KernelIdeal.Frame
import proofs.«142128_j16217796509773_2_alg».proof.Proof.Gen.ReferenceIdeal
import proofs.«142128_j16217796509773_2_alg».proof.Proof.Gen.ReferenceIdeal.Run
import proofs.«142128_j16217796509773_2_alg».proof.Proof.Gen.ReferenceIdeal.Read
import proofs.«142128_j16217796509773_2_alg».proof.Proof.Gen.Pre_finite_inputs
import proofs.«142128_j16217796509773_2_alg».proof.Proof.KernelValue
import proofs.«142128_j16217796509773_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the same result, `pooled` of the arguments:
    the kernel program's by its run read back, the reference's by its run, its last stage being `pooled`. -/
theorem algebraic : Cert.algebraic_KernelIdeal_ReferenceIdeal := by
  intro m ρ m' ρ' _ hagree
  refine ⟨fun c => Cert.Pool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.reference_pooled,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
